-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S_ : Shape := ⟨0, ![]⟩
abbrev S4096 : Shape := ⟨1, ![4096]⟩
abbrev S1x4096 : Shape := ⟨2, ![1, 4096]⟩
abbrev S16384x4096 : Shape := ⟨2, ![16384, 4096]⟩
abbrev S2048x1024 : Shape := ⟨2, ![2048, 1024]⟩
abbrev S256x1024 : Shape := ⟨2, ![256, 1024]⟩
abbrev S1x256 : Shape := ⟨2, ![1, 256]⟩
abbrev S2048x256 : Shape := ⟨2, ![2048, 256]⟩
abbrev S2048x1 : Shape := ⟨2, ![2048, 1]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S1x4096, .f32⟩
  | .hbm, ⟨6, _⟩ => ⟨S16384x4096, .f32⟩
  | .local _ .vmem, ⟨0, _⟩ => ⟨S2048x1024, .f32⟩
  | .local _ .vmem, ⟨1, _⟩ => ⟨S2048x1024, .f32⟩
  | .local _ .vmem, ⟨2, _⟩ => ⟨S256x1024, .f32⟩
  | .local _ .vmem, ⟨3, _⟩ => ⟨S256x1024, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S4096x1024_S4096_d1 : S4096x1024.ReducesTo [1] S4096
  h_S_ : 0 < S_.numel
  bcast_S4096_S1x4096_1 : S4096.BroadcastsInDim S1x4096 (![1] : Fin 1 → Fin S1x4096.rank)
  inb_S2048x1024_S1024x1024_0_0 : ∀ a, (![0, 0] : Fin 2 → Nat) a + S1024x1024.size a ≤ S2048x1024.size a
  h_S1024x1024 : 0 < S1024x1024.numel
  inb_S2048x1024_S1024x1024_1024_0 : ∀ a, (![1024, 0] : Fin 2 → Nat) a + S1024x1024.size a ≤ S2048x1024.size a
  reduces_S1024x1024_S1024 : S1024x1024.Reduces [1] S1024
  shapeCasts_S1024_S1024x1 : S1024.ShapeCasts S1024x1
  inb_S2048x1_S1024x1_0_0 : ∀ a, (![0, 0] : Fin 2 → Nat) a + S1024x1.size a ≤ S2048x1.size a
  h_S1024x1 : 0 < S1024x1.numel
  shapeCasts_S1024x1_S1024x1 : S1024x1.ShapeCasts S1024x1
  inb_S2048x1_S1024x1_1024_0 : ∀ a, (![1024, 0] : Fin 2 → Nat) a + S1024x1.size a ≤ S2048x1.size a
  inb_S2048x1_S2048x1_0_0 : ∀ a, (![0, 0] : Fin 2 → Nat) a + S2048x1.size a ≤ S2048x1.size a
  h_S2048x1 : 0 < S2048x1.numel
  inb_S2048x1024_S2048x1024_0_0 : ∀ a, (![0, 0] : Fin 2 → Nat) a + S2048x1024.size a ≤ S2048x1024.size a
  h_S2048x1024 : 0 < S2048x1024.numel
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S2048x1_S2048x256 : S2048x1.Broadcasts S2048x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x1024_S256x1024_S2048x256_1_1_0_0_n_n_wf : DotDims.WF S2048x1024 S256x1024 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x4096.size a
  hwx0_3 : ∀ i : grid0.Coords, EltTy.bits .f32 = 32 ∨ (Rect.block (s := S16384x4096) S2048x256.size (cc0_transform_3 i) (hinb0_3 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.Dist.lean ====
/-
  The squared Euclidean distance between rows, written by its expansion.

  For a row `x_b` of one array and a row `c_j` of another, both of length 1024,
      ‖x_b − c_j‖² = ‖x_b‖² + ‖c_j‖² − 2 · ⟨x_b, c_j⟩ .
  The right-hand side is what is computed: the two squared norms are added first, and twice the inner product is
  subtracted from their sum. Each of the three terms is a sum over the 1024 columns. This file states that expression
  over the extended reals, entry by entry, exactly in that grouping; no law of arithmetic beyond reading each sum as a
  sum is needed to recognise it in a program that computes it this way, so nothing here asks the entries to be finite.
-/
import Idealize.ShloMosaic.PureOps.Ideal.Laws
import Idealize.ShloMosaic.Lib.ValueIdx

noncomputable section

namespace Cert.Dist

open Idealize.ShloMosaic Idealize.ShloMosaic.ValueIdx

/-- The squared norm of row `b` of an `[n, 1024]` array: the sum over the columns of the entry times itself. -/
def sqNorm {n : ℕ} (x : (⟨2, ![n, 1024]⟩ : Shape).Idx → EReal) (b : Fin n) : EReal :=
  ∑ k : Fin 1024, x (ix2 b k) * x (ix2 b k)

/-- The inner product of row `b` of an `[n, 1024]` array with row `j` of a `[p, 1024]` array. -/
def inner {n p : ℕ} (x : (⟨2, ![n, 1024]⟩ : Shape).Idx → EReal) (y : (⟨2, ![p, 1024]⟩ : Shape).Idx → EReal)
    (b : Fin n) (j : Fin p) : EReal :=
  ∑ k : Fin 1024, x (ix2 b k) * y (ix2 j k)

/-- The factor in front of the inner product: the single-precision word of `2.0`, kept as a word (both programs
    carry the same word, so its value is never needed). -/
abbrev two : EReal := Ideal.ofBits .f32 0x40000000#32

/-- The expansion from its three terms: two squared norms `s` and `t` and an inner product `d`. -/
def combine (s t d : EReal) : EReal := (s + t) - two * d

/-- The squared distance between row `b` of `x` and row `j` of `y`, by the expansion. -/
def entry {n p : ℕ} (x : (⟨2, ![n, 1024]⟩ : Shape).Idx → EReal) (y : (⟨2, ![p, 1024]⟩ : Shape).Idx → EReal)
    (b : Fin n) (j : Fin p) : EReal :=
  combine (sqNorm x b) (sqNorm y j) (inner x y b j)

/-- All pairwise squared distances between the 16384 rows of `x` and the 4096 rows of `y`. -/
def dist (x : (⟨2, ![16384, 1024]⟩ : Shape).Idx → EReal) (y : (⟨2, ![4096, 1024]⟩ : Shape).Idx → EReal) :
    (⟨2, ![16384, 4096]⟩ : Shape).Idx → EReal :=
  fun i => entry x y (i 0) (i 1)

theorem dist_apply (x : (⟨2, ![16384, 1024]⟩ : Shape).Idx → EReal) (y : (⟨2, ![4096, 1024]⟩ : Shape).Idx → EReal)
    (b : Fin 16384) (j : Fin 4096) : dist x y (ix2 b j) = entry x y b j := rfl

end Cert.Dist

end
-- ==== Proof.RefDist.lean ====
/-
  The reference computes the expansion of the squared distance.

  Entry `(b, j)` of the reference's result is `(x2 b + c2 j) − 2 · xc b j`, where `x2 b` and `c2 j` are the row sums
  of the squares of `feat` and of `centers` (each a sum started from zero) and `xc b j` is the contraction of row `b` of
  `feat` with row `j` of `centers` over the 1024 columns. Read one operation at a time, each broadcast only renames the
  index, so the entry is `Dist.entry feat centers b j` once the two leading zeros are dropped.
-/
import proofs.«142223_j64914135712549_2_alg».proof.Proof.Gen.ReferenceIdeal.Read
import proofs.«142223_j64914135712549_2_alg».proof.Proof.Dist

noncomputable section

namespace Cert.ReferenceIdeal.RefValue

open Cert.ReferenceIdeal Cert.ReferenceIdeal.Read Idealize.ShloMosaic Idealize.ShloMosaic.ValueIdx Cert.Dist

/-- Row `b`, column `k` of `feat` is where the first squared norm's summand at `(b, j)` is read. -/
theorem idx_x2 (b : Fin 16384) (j : Fin 4096) (k : Fin 1024) :
    idx_main_v1 (idx_main_v2 (idx_main_v7 (ix2 b j))) k = ix2 b k :=
  funext fun a => Fin.ext (by match a with | ⟨0, _⟩ => rfl | ⟨1, _⟩ => rfl)

/-- Row `j`, column `k` of `centers` is where the second squared norm's summand at `(b, j)` is read. -/
theorem idx_c2 (b : Fin 16384) (j : Fin 4096) (k : Fin 1024) :
    idx_main_v4 (idx_main_v5 (idx_main_v8 (ix2 b j))) k = ix2 j k :=
  funext fun a => Fin.ext (by match a with | ⟨0, _⟩ => rfl | ⟨1, _⟩ => rfl)

/-- The contraction at `(b, j)` reads row `b` of `feat` -/
theorem idx_l (b : Fin 16384) (j : Fin 4096) (k : Fin 1024) : lidx_main_v6 (ix2 b j) k = ix2 b k :=
  funext fun a => Fin.ext (by match a with | ⟨0, _⟩ => rfl | ⟨1, _⟩ => rfl)

/-- and row `j` of `centers`. -/
theorem idx_r (b : Fin 16384) (j : Fin 4096) (k : Fin 1024) : ridx_main_v6 (ix2 b j) k = ix2 j k :=
  funext fun a => Fin.ext (by match a with | ⟨0, _⟩ => rfl | ⟨1, _⟩ => rfl)

/-- The reference's result is the table of squared distances by the expansion. -/
theorem ref_eq (x0 : (⟨S16384x1024, .f32⟩ : BufTy).Contents (Elt Ideal)) (x1 : (⟨S4096x1024, .f32⟩ : BufTy).Contents (Elt Ideal)) :
    val_main_v12 (F := Ideal) x0 x1 = dist x0 x1 := by
  funext i
  obtain ⟨b, j, rfl⟩ : ∃ (b : Fin 16384) (j : Fin 4096), i = ix2 b j := ⟨i 0, i 1, eq_ix2 i⟩
  rw [dist_apply, val_main_v12_apply, val_main_v9_apply, val_main_v11_apply, val_main_v7_apply, val_main_v2_apply,
    val_main_v1_apply, val_main_v8_apply, val_main_v5_apply, val_main_v4_apply, val_main_v6_apply, val_main_v10_apply,
    val_main_cst_1_apply, val_main_cst_apply, val_main_cst_0_apply]
  simp only [val_main_v0_apply, val_main_v3_apply, idx_x2, idx_c2, idx_l, idx_r]
  simp only [Ideal.subf_def, Ideal.addf_def, Ideal.mulf_def, Ideal.ofBits_def, Ideal.ofBits_zero_f32, zero_add]
  rfl

end Cert.ReferenceIdeal.RefValue

end
-- ==== Proof.Body.lean ====
/-
  What one run of the body leaves in the output's staging buffer.

  The body's only store to the output buffer covers it whole, so the buffer ends holding that store's value: the
  expansion formed from the block of `feat`, the block of `centers`, the block of the centers' squared norms, and the
  column of the rows' squared norms. The column is not an input: the body writes it to a scratch buffer in two halves
  (rows 0–1023, then rows 1024–2047, each computed from the matching half of the block of `feat`) and reads the whole
  scratch buffer back. What it reads is determined by the two halves alone, whatever the scratch held before, because the
  two halves tile the buffer. This file names that column and states the buffer's final contents over it. It holds for any
  reading of the floating-point operations.
-/
import proofs.«142223_j64914135712549_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The two stores to the scratch column, last first: rows 1024–2047 from the lower half of the block `x`, rows 0–1023 from
    its upper half. -/
def halves (x : Vec F S2048x1024 .f32) : List (View.Piece (Elt F) S2048x1 .f32) :=
  [⟨Rect.unit ![1024, 0] S1024x1.size inb_S2048x1_S1024x1_1024_0,
      k0_pay2 (View.ld x (Rect.unit ![1024, 0] S1024x1024.size inb_S2048x1024_S1024x1024_1024_0))⟩,
   ⟨Rect.unit ![0, 0] S1024x1.size inb_S2048x1_S1024x1_0_0,
      k0_pay1 (View.ld x (Rect.unit ![0, 0] S1024x1024.size inb_S2048x1024_S1024x1024_0_0))⟩]

/-- The column the body reads back from the scratch buffer: what the two half stores leave. -/
def column (x : Vec F S2048x1024 .f32) : Vec F S2048x1 .f32 := View.canon (halves x)

/-- The output's staging buffer after the body: the stored expansion over the column and the three input blocks. -/
theorem out_eq (c : Dev nD) (i : grid0.Coords) (a2 : Memref sig .tc .vmem S2048x1024 .f32) (h2 : a2.IsWhole)
    (a3 : Memref sig .tc .vmem S256x1024 .f32) (h3 : a3.IsWhole) (a4 : Memref sig .tc .vmem S1x256 .f32) (h4 : a4.IsWhole)
    (a5 : Memref sig .tc .vmem S2048x256 .f32) (h5 : a5.IsWhole) (a6 : Memref sig .tc .vmem S2048x1 .f32) (h6 : a6.IsWhole)
    (x0 : Vec F S2048x1024 .f32) (x1 : Vec F S256x1024 .f32) (x2 : Vec F S1x256 .f32) :
    out0_A_3 c i a2 h2 a3 h3 a4 h4 a5 h5 a6 h6 x0 x1 x2 = k0_pay3 (column x0) x0 x1 x2 := by
  unfold out0_A_3
  rw [View.read_writes_eq_canon _ _ _ (cover0_A_3 c i a2 h2 a3 h3 a4 h4 a5 h5 a6 h6 x0 x1 x2)]
  unfold kernelRun0_A
  dsimp only
  sl_unfold_words
  rw [View.canon_unit_zero hz]
  simp only [View.readAt_eq_ld, h2.read_unread, h3.read_unread, h4.read_unread, View.ld_unit_zero (S := S2048x1024) hz,
    View.ld_unit_zero (S := S256x1024) hz, View.ld_unit_zero (S := S1x256) hz]
  refine congrArg (fun s => k0_pay3 s x0 x1 x2) ?_
  rw [View.readCov_eq_canon']
  exact View.ld_unit_zero (S := S2048x1) hz _ (View.canon (halves x0))

end Cert.KernelIdeal.Body

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Payload.lean ====
/-
  What the kernel's body computes from its blocks, entry by entry, over the extended reals.

  At one grid point the body holds a `[2048, 1024]` block `x` of `feat`, a `[256, 1024]` block `y` of `centers` and a
  `[1, 256]` block `c2` of the centers' squared norms. It first fills a `[2048, 1]` column with the squared norms of the
  rows of `x`, half of the rows at a time (each half: square, sum along the row, keep the axis), and then forms
      column p  +  c2 q  −  2 · ⟨x_p, y_q⟩
  at every `(p, q)`, the inner product being a matrix product that contracts the second axis of both blocks (the narrowing
  of the blocks to half precision before the product is the identity on extended reals). Each statement below reads one
  of those pieces at an entry: a half column entry is a row's squared norm, the matrix product's entry is the inner product
  of two rows, and the stored value is `Dist.combine` of the three terms.
-/
import proofs.«142223_j64914135712549_2_alg».proof.Proof.Gen.KernelIdeal.Skeleton
import proofs.«142223_j64914135712549_2_alg».proof.Proof.Dist
import proofs.«142223_j64914135712549_2_alg».proof.Proof.LibColumn
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Dist

/-! ## A half of the column of squared norms -/

/-- Squaring a `[1024, 1024]` block, summing along each row and keeping the axis leaves, at `(r, 0)`, the squared norm of
    row `r`. -/
theorem sumSquares_apply (v : FVec Ideal S1024x1024 .f32) (r : Fin 1024) (u : Fin 1) :
    shapeCast S1024x1 (shapeCast S1024x1 (multiReduction .add [1] S1024 (mulf v v) 0x00000000#32 reduces_S1024x1024_S1024 (.inl rfl) rfl)
      shapeCasts_S1024_S1024x1) shapeCasts_S1024x1_S1024x1 (ix2 r u) = sqNorm v r := by
  rw [shapeCast_self]
  refine (Cert.Lib.shapeCast_a_a1_apply _ shapeCasts_S1024_S1024x1 r u).trans ?_
  refine (Ideal.multiReduction_add_single (mulf v v) 0x00000000#32 reduces_S1024x1024_S1024 (.inl rfl) rfl (ix1 r)).trans ?_
  unfold sqNorm
  refine Finset.sum_congr rfl fun k _ => ?_
  have e : reduces_S1024x1024_S1024.lift (ix1 r) k = ix2 r k :=
    funext fun a => Fin.ext (by match a with | ⟨0, _⟩ => rfl | ⟨1, _⟩ => rfl)
  exact congrArg (fun i => v i * v i) e

/-- The first half-column's stored value at `(r, 0)`: the squared norm of row `r` of the upper half block. -/
theorem pay1_apply (v : Vec Ideal S1024x1024 .f32) (r : Fin 1024) (u : Fin 1) :
    k0_pay1 (F := Ideal) v (ix2 r u) = sqNorm v r := by
  unfold k0_pay1
  exact sumSquares_apply v r u

/-- The second half-column's stored value at `(r, 0)`: the squared norm of row `r` of the lower half block. -/
theorem pay2_apply (v : Vec Ideal S1024x1024 .f32) (r : Fin 1024) (u : Fin 1) :
    k0_pay2 (F := Ideal) v (ix2 r u) = sqNorm v r := by
  unfold k0_pay2
  exact sumSquares_apply v r u

/-! ## The matrix product that contracts the second axis of both blocks -/

theorem lhs_0 (i : S2048x256.Idx) (q : dot_S2048x1024_S256x1024_S2048x256_1_1_0_0_n_n.contr.Idx) : (dot_S2048x1024_S256x1024_S2048x256_1_1_0_0_n_n.lhsIdx i q 0).val = (i 0).val := by
  unfold DotDims.lhsIdx
  rw [dif_neg (show ¬(0 : Fin S2048x1024.rank) ∈ dot_S2048x1024_S256x1024_S2048x256_1_1_0_0_n_n.lhsBatch by decide), dif_pos (show (0 : Fin S2048x1024.rank) ∈ dot_S2048x1024_S256x1024_S2048x256_1_1_0_0_n_n.lhsNonContracting by decide)]
  rfl
theorem lhs_1 (i : S2048x256.Idx) (q : dot_S2048x1024_S256x1024_S2048x256_1_1_0_0_n_n.contr.Idx) : (dot_S2048x1024_S256x1024_S2048x256_1_1_0_0_n_n.lhsIdx i q 1).val = (q ⟨0, by decide⟩).val :=
  dot_S2048x1024_S256x1024_S2048x256_1_1_0_0_n_n.lhsIdx_val_of_single rfl i q
theorem rhs_0 (i : S2048x256.Idx) (q : dot_S2048x1024_S256x1024_S2048x256_1_1_0_0_n_n.contr.Idx) : (dot_S2048x1024_S256x1024_S2048x256_1_1_0_0_n_n.rhsIdx i q 0).val = (i 1).val := by
  unfold DotDims.rhsIdx
  rw [dif_neg (show ¬(0 : Fin S256x1024.rank) ∈ dot_S2048x1024_S256x1024_S2048x256_1_1_0_0_n_n.rhsBatch by decide), dif_pos (show (0 : Fin S256x1024.rank) ∈ dot_S2048x1024_S256x1024_S2048x256_1_1_0_0_n_n.rhsNonContracting by decide)]
  rfl
theorem rhs_1 (i : S2048x256.Idx) (q : dot_S2048x1024_S256x1024_S2048x256_1_1_0_0_n_n.contr.Idx) : (dot_S2048x1024_S256x1024_S2048x256_1_1_0_0_n_n.rhsIdx i q 1).val = (q ⟨0, by decide⟩).val :=
  dot_S2048x1024_S256x1024_S2048x256_1_1_0_0_n_n.rhsIdx_val_of_single rfl i q

/-- Into a zero accumulator, entry `(p, q)` of the product is the inner product of row `p` of the left block with row `q`
    of the right block. -/
theorem rowsProduct_apply (l : FVec Ideal S2048x1024 .bf16) (r : FVec Ideal S256x1024 .bf16) (p : Fin 2048) (q : Fin 256) :
    matmul dot_S2048x1024_S256x1024_S2048x256_1_1_0_0_n_n none l r (constant S2048x256 .f32 0x00000000#32) (ix2 p q) = ∑ k : Fin 1024, l (ix2 p k) * r (ix2 q k) := by
  simp only [matmul]
  rw [Ideal.matmul_constant_zero_apply, ← Equiv.sum_comp (contrEquiv1 dot_S2048x1024_S256x1024_S2048x256_1_1_0_0_n_n 1024 rfl rfl).symm]
  refine Finset.sum_congr rfl fun k _ => ?_
  have hk := contrEquiv1_symm_val dot_S2048x1024_S256x1024_S2048x256_1_1_0_0_n_n 1024 rfl rfl k
  have el : dot_S2048x1024_S256x1024_S2048x256_1_1_0_0_n_n.lhsIdx (ix2 p q) ((contrEquiv1 dot_S2048x1024_S256x1024_S2048x256_1_1_0_0_n_n 1024 rfl rfl).symm k) = ix2 p k := funext fun a => Fin.ext (by
    match a with
    | ⟨0, _⟩ => exact lhs_0 _ _
    | ⟨1, _⟩ => exact (lhs_1 _ _).trans hk)
  have er : dot_S2048x1024_S256x1024_S2048x256_1_1_0_0_n_n.rhsIdx (ix2 p q) ((contrEquiv1 dot_S2048x1024_S256x1024_S2048x256_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-! ## The stored block -/

/-- The value stored at `(p, q)`: the expansion from the column's entry `p`, the squared norm `c2 q` and the inner product
    of row `p` of `x` with row `q` of `y`. -/
theorem pay3_apply (col : Vec Ideal S2048x1 .f32) (x : Vec Ideal S2048x1024 .f32) (y : Vec Ideal S256x1024 .f32)
    (c2 : Vec Ideal S1x256 .f32) (p : Fin 2048) (q : Fin 256) :
    k0_pay3 (F := Ideal) col x y c2 (ix2 p q) = combine (col (ix2 p (0 : Fin 1))) (c2 (ix2 (0 : Fin 1) q)) (inner x y p q) := by
  unfold k0_pay3
  rw [subf_apply, addf_apply, mulf_apply, broadcast_apply]
  refine congrArg₂ (fun a b => a - two * b) (congrArg₂ (· + ·) ?_ ?_) ?_
  · exact Cert.Lib.broadcastTo_a1_ab_apply col broadcasts_S2048x1_S2048x256 p q
  · rw [shapeCast_self]
    exact broadcastTo_1b_ab_apply c2 broadcasts_S1x256_S2048x256 p q
  · exact rowsProduct_apply _ _ p q

end Cert.KernelIdeal.Payload

end
-- ==== Proof.Column.lean ====
/-
  The scratch column holds the squared norms of the block's rows.

  The column is written in two halves, rows 0–1023 from the upper half of the `[2048, 1024]` block and rows 1024–2047 from
  its lower half, and each half's entry `r` is the squared norm of row `r` of that half. Row `r` of the upper half is row
  `r` of the block and row `r` of the lower half is row `1024 + r`, so both halves are pieces of one function of the
  column's index — the squared norm of the block's row with that index — and since every row lies in one of the halves,
  the column read back is that function.
-/
import proofs.«142223_j64914135712549_2_alg».proof.Proof.Body
import proofs.«142223_j64914135712549_2_alg».proof.Proof.Payload

noncomputable section

namespace Cert.KernelIdeal.Column

open Cert.KernelIdeal Cert.KernelIdeal.Gen Cert.KernelIdeal.Body Cert.KernelIdeal.Payload
open Idealize.ShloMosaic Idealize.ShloMosaic.ValueIdx Cert.Dist

/-- Rows `o … o + 1023` of the block, loaded as a `[1024, 1024]` block of their own: its row `r` has the squared norm of
    row `o + r` of the block. -/
theorem sqNorm_half (x : Vec Ideal S2048x1024 .f32) (o : ℕ)
    (inb : ∀ a, (![o, 0] : Fin 2 → Nat) a + S1024x1024.size a ≤ S2048x1024.size a) (r : Fin 1024) (b : Fin 2048)
    (hb : b.val = o + r.val) :
    sqNorm (View.ld x (Rect.unit (s := S2048x1024) ![o, 0] S1024x1024.size inb)) r = sqNorm x b := by
  unfold sqNorm
  refine Finset.sum_congr rfl fun k _ => ?_
  have e : (Rect.unit (s := S2048x1024) ![o, 0] S1024x1024.size inb).idx (ix2 r k) = ix2 b k := funext fun a => Fin.ext (by
    match a with
    | ⟨0, _⟩ => show o + 1 * r.val = b.val; omega
    | ⟨1, _⟩ => show 0 + 1 * k.val = k.val; omega)
  exact congrArg (fun i => x i * x i) e

/-- The function both halves are pieces of: at a column index, the squared norm of the block's row with that index. -/
def norms (x : Vec Ideal S2048x1024 .f32) : S2048x1.Idx → EReal := fun y => sqNorm x (y 0)

/-- Entry `p` of the column read back from the scratch buffer is the squared norm of row `p` of the block. -/
theorem column_apply (x : Vec Ideal S2048x1024 .f32) (p : Fin 2048) :
    column (F := Ideal) x (ix2 p (0 : Fin 1)) = sqNorm x p := by
  unfold column
  refine View.canon_apply_of_pieces (norms x) (halves x) ?_ (ix2 p (0 : Fin 1)) ?_
  · intro pc hpc z
    rcases List.mem_cons.mp hpc with rfl | hpc
    · obtain ⟨r, u, rfl⟩ : ∃ (r : Fin 1024) (u : Fin 1), z = ix2 r u := ⟨z 0, z 1, eq_ix2 z⟩
      refine (pay2_apply _ r u).trans ?_
      exact sqNorm_half x 1024 inb_S2048x1024_S1024x1024_1024_0 r _ (by show 1024 + 1 * r.val = 1024 + r.val; omega)
    · obtain rfl := List.mem_singleton.mp hpc
      obtain ⟨r, u, rfl⟩ : ∃ (r : Fin 1024) (u : Fin 1), z = ix2 r u := ⟨z 0, z 1, eq_ix2 z⟩
      refine (pay1_apply _ r u).trans ?_
      exact sqNorm_half x 0 inb_S2048x1024_S1024x1024_0_0 r _ (by show 0 + 1 * r.val = 0 + r.val; omega)
  · by_cases hp : p.val < 1024
    · refine ⟨_, List.mem_cons_of_mem _ List.mem_cons_self, ?_⟩
      rw [Rect.mem_set_unit]
      intro a
      match a with
      | ⟨0, _⟩ => show 0 ≤ p.val ∧ p.val < 0 + 1024; omega
      | ⟨1, _⟩ => show 0 ≤ 0 ∧ 0 < 0 + 1; omega
    · refine ⟨_, List.mem_cons_self, ?_⟩
      rw [Rect.mem_set_unit]
      intro a
      have := p.isLt
      match a with
      | ⟨0, _⟩ => show 1024 ≤ p.val ∧ p.val < 1024 + 1024; omega
      | ⟨1, _⟩ => show 0 ≤ 0 ∧ 0 < 0 + 1; omega

end Cert.KernelIdeal.Column

end
-- ==== Proof.CentersNorms.lean ====
/-
  The row of the centers' squared norms that the kernel's third window reads.

  Before the grid runs, the host squares `centers`, sums each row starting from zero, and lays the 4096 sums out as one
  `[1, 4096]` row. So the array the third window is cut from holds, at `(0, j)`, zero plus the sum over the columns of the
  square of row `j` of `centers`: the squared norm of that row.
-/
import proofs.«142223_j64914135712549_2_alg».proof.Proof.Gen.KernelIdeal.Frame.Runs
import proofs.«142223_j64914135712549_2_alg».proof.Proof.Dist
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.CentersNorms

open Cert.KernelIdeal Cert.KernelIdeal.Gen Idealize.ShloMosaic Idealize.ShloMosaic.TcCoe Idealize.SL.Sem
open Idealize.ShloMosaic.StableHlo Idealize.ShloMosaic.ValueIdx Cert.Dist

variable {F : FTy → Type} [FloatOps F]

/-- The host's row of sums, as a function of `centers`. -/
def normsRow (y : (⟨S4096x1024, .f32⟩ : BufTy).Contents (Elt F)) : (⟨S1x4096, .f32⟩ : BufTy).Contents (Elt F) :=
  broadcastInDim S1x4096 ![1] bcast_S4096_S1x4096_1
    (Host.reduceAdd (mulf y y) (constant S_ .f32 0x00000000#32) reducesTo_S4096x1024_S4096_d1 h_S_)

/-- When the grid starts, the third window's array is that row of sums of the launch contents of `centers`. -/
theorem V_main_v2 (m : (ℓ : Loc nD τ sig) → Buf (Elt F) ℓ) (c : Dev nD) :
    V m c main_v2 = normsRow (m ((c : Thread nD τ).loc main_arg1)) := by
  dsimp only [V, hostOps0]
  after_results
  rfl

/-- Over the extended reals its entry `(0, j)` is the squared norm of row `j` of `centers`. -/
theorem normsRow_apply (y : (⟨S4096x1024, .f32⟩ : BufTy).Contents (Elt Ideal)) (j : Fin 4096) :
    normsRow (F := Ideal) y (ix2 (0 : Fin 1) j) = sqNorm y j := by
  unfold normsRow
  refine (broadcastInDim_apply _ bcast_S4096_S1x4096_1 _ (ix2 (0 : Fin 1) j) (ix1 j) (fun a => match a with
    | ⟨0, _⟩ => by show j.val = if (4096 : Nat) = 1 then 0 else j.val; rw [if_neg (by decide)])).trans ?_
  simp only [Host.reduceAdd, Ideal.hostReduceAdd_def]
  rw [Ideal.hostReduceAdd_single reducesTo_S4096x1024_S4096_d1 (by decide)]
  show Ideal.ofBits .f32 0x00000000#32 + _ = _
  rw [Ideal.ofBits_zero_f32, zero_add]
  unfold sqNorm
  refine Finset.sum_congr rfl fun k _ => ?_
  exact congrArg (fun i => y i * y i) (funext fun a => Fin.ext (by match a with | ⟨0, _⟩ => rfl | ⟨1, _⟩ => rfl))

end Cert.KernelIdeal.CentersNorms

end
-- ==== Proof.Whole.lean ====
/-
  From the blocks each grid point writes to the whole table of squared distances.

  The grid has 8 × 16 points. Point `(i, j)` reads rows `2048 i … 2048 i + 2047` of `feat`, rows `256 j … 256 j + 255` of
  `centers` and entries `256 j … 256 j + 255` of the row of the centers' squared norms, and writes the `[2048, 256]` block
  `(i, j)` of the result. Entry `(p, q)` of what it writes is the expansion formed from row `p` of its block of `feat`
  and row `q` of its block of `centers`; those are rows `2048 i + p` and `256 j + q` of the arrays, and that is exactly
  the position `(2048 i + p, 256 j + q)` of the result the entry is written to. So every block written is the matching block of
  the table `Dist.dist feat centers`, and since the 128 blocks fill the `[16384, 4096]` result (the block holding row `r`
  and column `s` is `(r / 2048, s / 256)`), the result ends as that table.
-/
import proofs.«142223_j64914135712549_2_alg».proof.Proof.Gen.KernelIdeal.Value
import proofs.«142223_j64914135712549_2_alg».proof.Proof.Column
import proofs.«142223_j64914135712549_2_alg».proof.Proof.CentersNorms

noncomputable section

namespace Cert.KernelIdeal.Whole

open Cert.KernelIdeal Cert.KernelIdeal.Gen Cert.KernelIdeal.Body Cert.KernelIdeal.Payload Cert.KernelIdeal.Column
open Idealize.ShloMosaic Idealize.ShloMosaic.TcCoe Idealize.SL.Sem Idealize.ShloMosaic.ValueIdx Cert.Dist
open Idealize.ShloMosaic.Pipeline (Dat)

variable (m : (ℓ : Loc nD τ sig) → Buf (Elt Ideal) ℓ) (ρ : Dev nD → PrngReg)

/-! ## One entry of one block -/

/-- If row `p` of the block `x0` is row `B` of `X`, row `q` of the block `x1` is row `J` of `Y`, and entry `q` of the block
    `x2` is the squared norm of row `J` of `Y`, then the value stored at `(p, q)` is the squared distance, by the expansion,
    between row `B` of `X` and row `J` of `Y`. -/
theorem stored_entry (X : (⟨2, ![16384, 1024]⟩ : Shape).Idx → EReal) (Y : (⟨2, ![4096, 1024]⟩ : Shape).Idx → EReal)
    (x0 : Vec Ideal S2048x1024 .f32) (x1 : Vec Ideal S256x1024 .f32) (x2 : Vec Ideal S1x256 .f32)
    (B : Fin 16384) (J : Fin 4096) (p : Fin 2048) (q : Fin 256)
    (h0 : ∀ k : Fin 1024, x0 (ix2 p k) = X (ix2 B k))
    (h1 : ∀ k : Fin 1024, x1 (ix2 q k) = Y (ix2 J k))
    (h2 : x2 (ix2 (0 : Fin 1) q) = sqNorm Y J) :
    k0_pay3 (F := Ideal) (column x0) x0 x1 x2 (ix2 p q) = entry X Y B J := by
  rw [pay3_apply, column_apply, h2]
  unfold entry
  refine congrArg₂ (fun s d => combine s (sqNorm Y J) d) ?_ ?_
  · unfold sqNorm
    exact Finset.sum_congr rfl fun k _ => by rw [h0 k]
  · unfold Cert.Dist.inner
    exact Finset.sum_congr rfl fun k _ => by rw [h0 k, h1 k]

/-! ## The index maps over the grid -/

/-- At every grid point: the block of `feat` moves with the result's block row and spans all columns, the block of `centers`
    moves with the result's block column and spans all columns, the block of the norms' row moves with the result's block
    column, and the result's block indices stay below 8 and 16. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 15 :=
  (by decide +kernel : ∀ t : Fin grid0.N, _)

/-- Every one of the 8 × 16 blocks of the result is some grid point's. -/
theorem idx_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-! ## What a point writes back -/

/-- What point `t` writes back is block `t` of the table of squared distances of the launch contents of the arguments. -/
theorem flushed_eq (c : Dev nD) (t : Fin cfg0.N) :
    (dats m 0 c).flushed 3 t = ((cfg0.win 3).blk t).view.read (Elt Ideal)
      (dist (m ((c : Thread nD τ).loc main_arg0)) (m ((c : Thread nD τ).loc main_arg1))) := by
  rw [Value.flushed3_A, Body.out_eq]
  obtain ⟨e00, e01, e10, e11, e20, e21, b0, b1⟩ := idx_facts t
  refine funext fun (y : S2048x256.Idx) => ?_
  obtain ⟨p, q, rfl⟩ : ∃ (p : Fin 2048) (q : Fin 256), y = ix2 p q := ⟨y 0, y 1, eq_ix2 y⟩
  show k0_pay3 (column (iblk m c 0 t)) (iblk m c 0 t) (iblk m c 1 t) (iblk m c 2 t) (ix2 p q)
    = dist (m ((c : Thread nD τ).loc main_arg0)) (m ((c : Thread nD τ).loc main_arg1)) (((cfg0.win 3).blk t).view.emb (ix2 p q))
  have hp := p.isLt
  have hq := q.isLt
  have hi : ((cfg0.win 3).blk t).view.emb (ix2 p q)
      = ix2 (⟨win0_3.index t (0 : Fin 2) * 2048 + p.val, by omega⟩ : Fin 16384) (⟨win0_3.index t (1 : Fin 2) * 256 + q.val, by omega⟩ : Fin 4096) := by
    funext a; apply Fin.ext
    match a with
    | ⟨0, _⟩ => show win0_3.index t (0 : Fin 2) * 2048 + 1 * p.val = win0_3.index t (0 : Fin 2) * 2048 + p.val; omega
    | ⟨1, _⟩ => show win0_3.index t (1 : Fin 2) * 256 + 1 * q.val = win0_3.index t (1 : Fin 2) * 256 + q.val; omega
  rw [hi, dist_apply]
  refine stored_entry _ _ (iblk m c 0 t) (iblk m c 1 t) (iblk m c 2 t) _ _ p q ?_ ?_ ?_
  · intro k
    show V m c main_arg0 (((cfg0.win 0).blk t).view.emb (ix2 p k)) = m ((c : Thread nD τ).loc main_arg0) _
    rw [V_main_arg0]
    refine congrArg _ (funext fun a => Fin.ext ?_)
    match a with
    | ⟨0, _⟩ => show win0_0.index t (0 : Fin 2) * 2048 + 1 * p.val = win0_3.index t (0 : Fin 2) * 2048 + p.val; omega
    | ⟨1, _⟩ => show win0_0.index t (1 : Fin 2) * 1024 + 1 * k.val = k.val; omega
  · intro k
    show V m c main_arg1 (((cfg0.win 1).blk t).view.emb (ix2 q k)) = m ((c : Thread nD τ).loc main_arg1) _
    rw [V_main_arg1]
    refine congrArg _ (funext fun a => Fin.ext ?_)
    match a with
    | ⟨0, _⟩ => show win0_1.index t (0 : Fin 2) * 256 + 1 * q.val = win0_3.index t (1 : Fin 2) * 256 + q.val; omega
    | ⟨1, _⟩ => show win0_1.index t (1 : Fin 2) * 1024 + 1 * k.val = k.val; omega
  · show V m c main_v2 (((cfg0.win 2).blk t).view.emb (ix2 (0 : Fin 1) q)) = _
    rw [CentersNorms.V_main_v2]
    have hj : ((cfg0.win 2).blk t).view.emb (ix2 (0 : Fin 1) q)
        = ix2 (0 : Fin 1) (⟨win0_3.index t (1 : Fin 2) * 256 + q.val, by omega⟩ : Fin 4096) := by
      funext a; apply Fin.ext
      match a with
      | ⟨0, _⟩ => show win0_2.index t (0 : Fin 2) * 1 + 1 * 0 = 0; omega
      | ⟨1, _⟩ => show win0_2.index t (1 : Fin 2) * 256 + 1 * q.val = win0_3.index t (1 : Fin 2) * 256 + q.val; omega
    rw [hj]
    exact CentersNorms.normsRow_apply _ _

/-! ## The blocks fill the result -/

/-- An index of the result lies in point `t`'s block iff each coordinate lies in the block's range on its axis. -/
theorem mem_blk (t : Fin cfg0.N) (i : S16384x4096.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v3).slice (win0_3.rect t)).set ↔ _
  rw [View.set_slice_whole, Rect.mem_set_unit]
  exact Iff.rfl

/-- Every index of the result lies in the block of the point whose block row and column are the quotients of its coordinates
    by the block's extents. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 2048, by omega⟩ ⟨(i 1).val / 256, by omega⟩
  have q0 : win0_3.index t (0 : Fin 2) = (i 0).val / 2048 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- So the result array ends as the table of squared distances of the launch contents of the arguments. -/
theorem final (c : Dev nD) :
    (dats m 0 c).arrAt 3 cfg0.N = dist (m ((c : Thread nD τ).loc main_arg0)) (m ((c : Thread nD τ).loc main_arg1)) :=
  (dats m 0 c).arrAt_eq_of_cover 3 (dist (m ((c : Thread nD τ).loc main_arg0)) (m ((c : Thread nD τ).loc main_arg1)))
    (fun t _ => flushed_eq m c t) cover

/-! ## The run, read -/

/-- Every weakly fair execution of the idealized kernel terminates with the result at that table and the arguments unchanged. -/
theorem run : θ_run defs (onTc (τ := τ) (main (F := Ideal))) ⟨m, fun _ => 0, ρ⟩ fun r => ∀ c : Dev nD,
      r.2.mem ((c : Thread nD τ).loc main_v3) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  Pairwise squared Euclidean distances between the 16384 rows of `feat` and the 4096 rows of `centers` (rows of length
  1024): the kernel and its reference compute the same table over the extended reals.

  Both programs use the expansion ‖x − c‖² = ‖x‖² + ‖c‖² − 2·⟨x, c⟩ and both evaluate its right-hand side in the same
  grouping: entry `(b, j)` of the result is `(x2 b + c2 j) − 2 · xc b j`, with `x2 b` the squared norm of row `b` of
  `feat`, `c2 j` the squared norm of row `j` of `centers`, and `xc b j` the inner product of the two rows.

  * The reference forms the three terms as whole arrays: two row sums of squares, one contraction over the second axis of
    both arrays, three broadcasts, and the arithmetic entry by entry (`RefDist`).
  * The kernel cuts the result into 8 × 16 blocks of `[2048, 256]`. For a block it takes 2048 rows of `feat` and 256 rows
    of `centers`, obtains the squared norms of the 2048 rows itself (in two halves, through a scratch column: `Body`,
    `Column`), takes the squared norms of the 256 rows of `centers` from a row the host computed once beforehand
    (`CentersNorms`), forms the inner products by a matrix product whose operands are first narrowed to half precision —
    no change over the extended reals — and stores the expansion (`Payload`). Each stored entry is the entry of the table at
    the position it is written to, and the blocks fill the result (`Whole`).

  Since the two sides agree term by term — only the extent of each sum is cut differently, and the sums start from a zero that
  adds nothing — no identity of arithmetic that could fail at an infinite entry is used, and the finiteness of the inputs is
  never called on. The idealization changed nothing in the kernel's text, so there is nothing to preserve beyond `True`.
  The three programs run to completion with their arguments unchanged: for the two kernels this is the generated frame,
  for the reference its generated run.
-/
import proofs.«142223_j64914135712549_2_alg».proof.Defs
import proofs.«142223_j64914135712549_2_alg».proof.Proof.Gen.Kernel
import proofs.«142223_j64914135712549_2_alg».proof.Proof.Gen.Kernel.Frame
import proofs.«142223_j64914135712549_2_alg».proof.Proof.Gen.KernelIdeal
import proofs.«142223_j64914135712549_2_alg».proof.Proof.Gen.KernelIdeal.Frame
import proofs.«142223_j64914135712549_2_alg».proof.Proof.Gen.KernelIdeal.Value
import proofs.«142223_j64914135712549_2_alg».proof.Proof.Gen.ReferenceIdeal
import proofs.«142223_j64914135712549_2_alg».proof.Proof.Gen.ReferenceIdeal.Run
import proofs.«142223_j64914135712549_2_alg».proof.Proof.Gen.ReferenceIdeal.Read
import proofs.«142223_j64914135712549_2_alg».proof.Proof.Gen.Pre_finite_inputs
import proofs.«142223_j64914135712549_2_alg».proof.Proof.RefDist
import proofs.«142223_j64914135712549_2_alg».proof.Proof.Whole

noncomputable section

namespace Cert.Proof

open Idealize.ShloMosaic Idealize.SL.Sem

/-- The word-level kernel runs to completion, its arguments unchanged. -/
theorem frame_kernel : Cert.frame_Kernel := fun m ρ _ => Cert.Kernel.Gen.frame m ρ

/-- The idealized kernel runs to completion, its arguments unchanged. -/
theorem frame_kernelIdeal : Cert.frame_KernelIdeal := fun m ρ _ => Cert.KernelIdeal.Gen.frame m ρ

/-- The idealized reference runs to completion, its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `feat` and `centers`, both programs end with the table of squared distances of those two
    arrays: the kernel block by block, the reference as whole arrays. -/
theorem algebraic : Cert.algebraic_KernelIdeal_ReferenceIdeal := by
  intro m ρ m' ρ' _ hagree
  refine ⟨fun c => Cert.Dist.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
